-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S8192x1 : Shape := ⟨2, ![8192, 1]⟩
abbrev S512x4096 : Shape := ⟨2, ![512, 4096]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S8192x1 : Shape := ⟨2, ![8192, 1]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.RowScale.lean ====
/-
  The function both programs compute: every row of an 8192 × 4096 matrix multiplied through by that row's entry of
  a vector of 8192 scales. At position (r, c) the result is the product of the matrix entry at (r, c) and the
  vector entry at r, a product of two extended reals. Nothing else is needed of the extended reals than that
  their multiplication commutes, which holds at the infinities too, so no finiteness of the inputs enters.
-/
import Idealize.ShloMosaic.PureOps.Ideal
import Idealize.ShloMosaic.Lib.ValueIdx

noncomputable section

namespace Cert.RowScale

open Idealize.ShloMosaic Idealize.ShloMosaic.ValueIdx

/-- The matrix shape: 8192 rows of 4096 entries. -/
abbrev Mat : Shape := ⟨2, ![8192, 4096]⟩
/-- The shape of the vector of scales: one entry per row of the matrix. -/
abbrev Scales : Shape := ⟨1, ![8192]⟩

/-- The row of a matrix position, as a position of the vector of scales. -/
abbrev rowOf (i : Mat.Idx) : Scales.Idx := ix1 (n := 8192) (i 0)

/-- Row `r` of `x` multiplied through by `f r`: at `(r, c)` the product `x (r, c) * f r`. -/
def scaled (x : Mat.Idx → EReal) (f : Scales.Idx → EReal) : Mat.Idx → EReal :=
  fun i => x i * f (rowOf i)

theorem scaled_apply (x : Mat.Idx → EReal) (f : Scales.Idx → EReal) (i : Mat.Idx) :
    scaled x f i = x i * f (rowOf i) := rfl

/-- One entry, the matrix entry first: two extended reals that are the matrix entry at `i` and the scale of `i`'s
    row multiply to the scaled matrix at `i`. -/
theorem entry_left (x : Mat.Idx → EReal) (f : Scales.Idx → EReal) (i : Mat.Idx) (a b : EReal)
    (ha : a = x i) (hb : b = f (rowOf i)) : a * b = scaled x f i := by
  subst ha hb; rfl

/-- One entry, the scale first: the same two factors in the other order, equal because multiplication of
    extended reals commutes. -/
theorem entry_right (x : Mat.Idx → EReal) (f : Scales.Idx → EReal) (i i' : Mat.Idx) (r : Scales.Idx)
    (hi : i' = i) (hr : r = rowOf i) : f r * x i' = scaled x f i := by
  subst hi hr; exact mul_comm _ _

end Cert.RowScale

end
-- ==== Proof.ScaleColumn.lean ====
/-
  The kernel's second operand. Before the region the program re-lays the vector of 8192 scales as a column, an
  8192 × 1 array with the same entries in the same row-major order; the region's second window reads that column.
  Entry (r, 0) of the column is entry r of the vector: both sit at row-major position r.
-/
import proofs.«119041_j29824252903576_2_alg».proof.Proof.Gen.KernelIdeal.Frame
import proofs.«119041_j29824252903576_2_alg».proof.Proof.RowScale
import Idealize.ShloMosaic.Lib.StableHlo.Run
import Idealize.ShloMosaic.Lib.Pipeline.Value

noncomputable section

namespace Cert.KernelIdeal.Scaled

open Cert.KernelIdeal Cert.KernelIdeal.Gen Idealize.ShloMosaic Idealize.ShloMosaic.TcCoe Idealize.SL.Sem
open Idealize.ShloMosaic.StableHlo Idealize.ShloMosaic.ValueIdx Cert.RowScale

variable (m : (ℓ : Loc nD τ sig) → Buf (Elt Ideal) ℓ)

/-- The column as the region finds it: the vector of scales as launched, re-laid. -/
theorem column_eq (c : Dev nD) :
    (V m c main_v0 : S8192x1.Idx → EReal)
      = shapeCast S8192x1 (m ((c : Thread nD τ).loc main_arg1)) shapeCasts_S8192_S8192x1 := by
  dsimp only [Gen.V, Gen.hostOps0]; after_results; rfl

/-- Entry `k` of the column is the scale of `k`'s row. -/
theorem column_apply (c : Dev nD) (k : S8192x1.Idx) (r : S8192.Idx) (hr : (r 0).val = (k 0).val) :
    (V m c main_v0 : S8192x1.Idx → EReal) k = m ((c : Thread nD τ).loc main_arg1) r := by
  rw [column_eq]
  refine shapeCast_apply _ _ k r ?_
  rw [Shape.rowMajor_val_one, Shape.rowMajor_val_two]
  have h1 : (k 1).val < 1 := (k 1).isLt
  show (r 0).val = (k 0).val * 1 + (k 1).val
  omega

end Cert.KernelIdeal.Scaled

end
-- ==== Proof.KernelScaled.lean ====
/-
  The kernel's result array is the scaled matrix. The grid has 16 points; at point t the three windows sit on the
  same 512 rows, rows 512·t … 512·t + 511: the matrix window and the output window on all 4096 columns, the window
  on the column of scales on its one column. The body multiplies the matrix block, entry by entry, by the block of
  the column spread along the 4096 columns: the entry it leaves at (p, q) of the output block is the matrix block's
  entry (p, q) times the column block's entry (p, 0). Read in the arrays, that is the matrix entry at
  (512·t + p, q) times the scale of row 512·t + p: block t of the scaled matrix. The 16 blocks tile the 8192 rows
  (row r is in block r / 512), so after the last point the whole output array is the scaled matrix.
-/
import proofs.«119041_j29824252903576_2_alg».proof.Proof.Gen.KernelIdeal.Value
import proofs.«119041_j29824252903576_2_alg».proof.Proof.ScaleColumn

noncomputable section

namespace Cert.KernelIdeal.Scaled

open Cert.KernelIdeal Cert.KernelIdeal.Gen Idealize.ShloMosaic Idealize.ShloMosaic.TcCoe Idealize.SL.Sem
open Idealize.ShloMosaic.Pipeline (Dat)
open Idealize.ShloMosaic.ValueIdx Cert.RowScale

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The three windows move together down the rows: at every grid point the matrix window, the window on the column
    of scales and the output window are on the same block of rows, one of the 16, and on block 0 of the columns. -/
theorem same_rows : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 15 :=
  (by decide +kernel : ∀ t : Fin grid0.N, _)

/-- Each of the 16 blocks of rows is some grid point's. -/
theorem every_block : ∀ q : Fin 16, ∃ t : Fin cfg0.N, win0_2.index t = ![q.val, 0] :=
  (by decide +kernel : ∀ q : Fin 16, ∃ t : Fin grid0.N, win0_2.index t = ![q.val, 0])

/-- What grid point `t` writes back is block `t` of the scaled matrix. -/
theorem flushed_eq (c : Dev nD) (t : Fin cfg0.N) :
    (dats m 0 c).flushed 2 t
      = ((cfg0.win 2).blk t).view.read (Elt Ideal)
          (scaled (V m c main_arg0) (m ((c : Thread nD τ).loc main_arg1))) := by
  rw [Value.flushed2]
  unfold out0_2
  simp only [View.ld_unit_zero (S := S512x4096) origin, View.ld_unit_zero (S := S512x1) origin]
  funext j
  refine (Value.canon2_eq (F := Ideal) (iblk m c 0 t) (iblk m c 1 t) j).trans ?_
  show _ = scaled (V m c main_arg0) (m ((c : Thread nD τ).loc main_arg1)) (((cfg0.win 2).blk t).view.emb j)
  obtain ⟨e0, e1, e2, e3, e4, e5⟩ := same_rows t
  have hj0 : (j 0).val < 512 := (j 0).isLt
  have hj1 : (j 1).val < 4096 := (j 1).isLt
  -- the matrix block's entry is the matrix's at the output's position
  have hmat : ((cfg0.win 0).blk t).view.emb (Value.ix2_0 j) = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  -- the column block's entry is the scale of the output position's row
  have hcol : (V m c main_v0 : S8192x1.Idx → EReal) (((cfg0.win 1).blk t).view.emb (Value.ix2_1 j))
      = m ((c : Thread nD τ).loc main_arg1) (rowOf (((cfg0.win 2).blk t).view.emb j)) := by
    refine column_apply m c _ _ ?_
    show win0_2.index t (0 : Fin 2) * 512 + 1 * (j 0).val = win0_1.index t (0 : Fin 2) * 512 + 1 * (j 0).val
    omega
  exact entry_left (V m c main_arg0) (m ((c : Thread nD τ).loc main_arg1)) (((cfg0.win 2).blk t).view.emb j)
    (iblk m c 0 t (Value.ix2_0 j)) (iblk m c 1 t (Value.ix2_1 j)) (congrArg (V m c main_arg0) hmat) hcol

/-- A position of the output array is in point `t`'s block when each coordinate is in the block's range. -/
theorem mem_block (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- The blocks tile the array: the position in row `r` is in the block of the point on rows 512·(r / 512) …. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- After the last grid point the output array is the scaled matrix of the two arguments as launched. -/
theorem final (c : Dev nD) :
    (dats m 0 c).arrAt 2 cfg0.N
      = scaled (m ((c : Thread nD τ).loc main_arg0)) (m ((c : Thread nD τ).loc main_arg1)) := by
  rw [← V_main_arg0 m c]
  exact (dats m 0 c).arrAt_eq_of_cover 2 _ (fun t _ => flushed_eq m c t) covered

/-- The kernel's run: every weakly fair execution ends with the result array at the scaled matrix of the
    arguments, the arguments unchanged. -/
theorem run : θ_run defs (onTc (τ := τ) (main (F := Ideal))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scaled

end
-- ==== Proof.ReferenceScaled.lean ====
/-
  The reference's result is the scaled matrix. The reference spreads the vector of scales along a new unit axis,
  then along the 4096 columns, and multiplies the spread array by the matrix entry by entry: at (r, c) it is
  `f r * x (r, c)`, the scale first. Reading the two spreads back at an index gives the scale of row r; the
  product is the scaled matrix's with its factors exchanged.
-/
import proofs.«119041_j29824252903576_2_alg».proof.Proof.Gen.ReferenceIdeal.Read
import proofs.«119041_j29824252903576_2_alg».proof.Proof.RowScale

noncomputable section

namespace Cert.ReferenceIdeal.RefValue

open Cert.ReferenceIdeal Cert.ReferenceIdeal.Gen Cert.ReferenceIdeal.Read
open Idealize.ShloMosaic Idealize.ShloMosaic.ValueIdx Cert.RowScale

/-- The two spreads read back: the position the vector of scales is read at for the matrix position `i` is
    `i`'s row. -/
theorem spread_row (i : S8192x4096.Idx) : idx_main_v0 (idx_main_v1 i) = rowOf i :=
  funext fun a => Fin.ext (by match a with | ⟨0, _⟩ => rfl)

/-- The last stage of the reference's run, as a function of the two arguments, is the scaled matrix. -/
theorem result_eq (x : S8192x4096.Idx → EReal) (f : S8192.Idx → EReal) :
    val_main_v2 (F := Ideal) x f = scaled x f := by
  funext i
  rw [val_main_v2_apply, val_main_v1_apply, val_main_v0_apply]
  exact entry_right x f i i _ rfl (spread_row i)

end Cert.ReferenceIdeal.RefValue

end
-- ==== Proof.lean ====
/-
  Scaling the rows of a matrix: the kernel against its reference, on the extended reals.

  Both programs take an 8192 × 4096 matrix `x` and a vector `f` of 8192 scales and return the matrix whose entry
  (r, c) is the product of `x (r, c)` and `f r` (Proof/RowScale.lean, `scaled`). The kernel re-lays `f` as a column,
  walks the rows in 16 blocks of 512 and in each block multiplies the matrix block by the column block spread along
  the columns, matrix entry first (Proof/ScaleColumn.lean, Proof/KernelScaled.lean). The reference spreads `f` along
  the columns of the whole array and multiplies, scale first (Proof/ReferenceScaled.lean). Entry by entry the two
  results are the same two factors in opposite orders, and multiplication of extended reals commutes, at the
  infinities as well: the inputs' finiteness is not used.

  The three frames are the generated runs (the reference's with its result dropped). The idealized kernel is the
  kernel's own text read on the extended reals, no operation rewritten, so there is nothing to preserve.
-/
import proofs.«119041_j29824252903576_2_alg».proof.Defs
import proofs.«119041_j29824252903576_2_alg».proof.Proof.Gen.Kernel
import proofs.«119041_j29824252903576_2_alg».proof.Proof.Gen.Kernel.Skeleton
import proofs.«119041_j29824252903576_2_alg».proof.Proof.Gen.Kernel.Launch
import proofs.«119041_j29824252903576_2_alg».proof.Proof.Gen.Kernel.Points
import proofs.«119041_j29824252903576_2_alg».proof.Proof.Gen.Kernel.Frame
import proofs.«119041_j29824252903576_2_alg».proof.Proof.Gen.KernelIdeal
import proofs.«119041_j29824252903576_2_alg».proof.Proof.Gen.KernelIdeal.Skeleton
import proofs.«119041_j29824252903576_2_alg».proof.Proof.Gen.KernelIdeal.Launch
import proofs.«119041_j29824252903576_2_alg».proof.Proof.Gen.KernelIdeal.Points
import proofs.«119041_j29824252903576_2_alg».proof.Proof.Gen.KernelIdeal.Frame
import proofs.«119041_j29824252903576_2_alg».proof.Proof.Gen.ReferenceIdeal
import proofs.«119041_j29824252903576_2_alg».proof.Proof.Gen.Pre_finite_inputs
import proofs.«119041_j29824252903576_2_alg».proof.Proof.Gen.KernelIdeal.Value
import proofs.«119041_j29824252903576_2_alg».proof.Proof.Gen.ReferenceIdeal.Run
import proofs.«119041_j29824252903576_2_alg».proof.Proof.Gen.ReferenceIdeal.Read
import proofs.«119041_j29824252903576_2_alg».proof.Proof.KernelScaled
import proofs.«119041_j29824252903576_2_alg».proof.Proof.ReferenceScaled
import Idealize.ShloMosaic.Adequacy
import Idealize.ShloMosaic.Init

noncomputable section

namespace Cert.Proof

open Idealize.ShloMosaic Idealize.SL.Sem Cert.Kernel

/-- The kernel as printed runs and leaves its arguments as launched. -/
theorem frame_kernel [Cert.Kernel.Facts] [Cert.Pre_finite_inputs.Facts] : Cert.frame_Kernel :=
  fun m ρ _ => Cert.Kernel.Gen.frame m ρ

/-- So does the kernel read on the extended reals. -/
theorem frame_kernel_ideal [Cert.KernelIdeal.Facts] [Cert.Pre_finite_inputs.Facts] : Cert.frame_KernelIdeal :=
  fun m ρ _ => Cert.KernelIdeal.Gen.frame m ρ

/-- The reference's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the two arguments both programs end with the scaled matrix of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Scaled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
